-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x100000 : Shape := ⟨2, ![2, 100000]⟩
abbrev S768x768 : Shape := ⟨2, ![768, 768]⟩
abbrev S768 : Shape := ⟨1, ![768]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768x768 .f32) (main_arg6 : FVec F S768 .f32) (main_arg7 : FVec F S768x768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg7
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  main_v33

def fn {F : FTy → Type} [FloatOps F] (main_arg0 : FVec F S50000x768 .f32) (main_arg1 : IVec S2x100000 32) (main_arg2 : FVec F S768x768 .f32) (main_arg3 : FVec F S768 .f32) (main_arg4 : FVec F S768x768 .f32) (main_arg5 : FVec F S768x768 .f32) (main_arg6 : FVec F S768 .f32) (main_arg7 : FVec F S768x768 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x768 .f32 := Host.absf main_arg2
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg4
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg5 main_arg6 main_arg7 main_v13 main_v16
-- ==== Kernel.lean ====
abbrev S50000x768 : Shape := ⟨2, ![50000, 768]⟩
abbrev S2x100000 : Shape := ⟨2, ![2, 100000]⟩
abbrev S768x768 : Shape := ⟨2, ![768, 768]⟩
abbrev S768 : Shape := ⟨1, ![768]⟩
abbrev S1x100000 : Shape := ⟨2, ![1, 100000]⟩
abbrev S100000 : Shape := ⟨1, ![100000]⟩
abbrev S_ : Shape := ⟨0, ![]⟩
abbrev S50000 : Shape := ⟨1, ![50000]⟩
abbrev S100000x1 : Shape := ⟨2, ![100000, 1]⟩
abbrev S50000x1 : Shape := ⟨2, ![50000, 1]⟩
abbrev S100000x768 : Shape := ⟨2, ![100000, 768]⟩
abbrev S1x768 : Shape := ⟨2, ![1, 768]⟩
abbrev S2000x768 : Shape := ⟨2, ![2000, 768]⟩
abbrev S2000x1 : Shape := ⟨2, ![2000, 1]⟩

abbrev nBuf : Space → Nat
  | .hbm => 60
  | .vmem => 22
  | .smem => 0
  | _ => 0

abbrev bufTy : (tb : Table) → Fin (tcTables nBuf tb) → BufTy
  | .hbm, ⟨0, _⟩ => ⟨S50000x768, .f32⟩
  | .hbm, ⟨1, _⟩ => ⟨S2x100000, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S1x100000, .i32⟩
  | .hbm, ⟨9, _⟩ => ⟨S100000, .i32⟩
  | .hbm, ⟨10, _⟩ => ⟨S1x100000, .i32⟩
  | .hbm, ⟨11, _⟩ => ⟨S100000, .i32⟩
  | .hbm, ⟨12, _⟩ => ⟨S_, .f32⟩
  | .hbm, ⟨13, _⟩ => ⟨S100000, .f32⟩
  | .hbm, ⟨14, _⟩ => ⟨S_, .f32⟩
  | .hbm, ⟨15, _⟩ => ⟨S50000, .f32⟩
  | .hbm, ⟨16, _⟩ => ⟨S100000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x768, .f32⟩
  | .hbm, ⟨35, _⟩ => ⟨S_, .f32⟩
  | .hbm, ⟨36, _⟩ => ⟨S50000x768, .f32⟩
  | .hbm, ⟨37, _⟩ => ⟨S100000x1, .i32⟩
  | .hbm, ⟨38, _⟩ => ⟨S50000x768, .f32⟩
  | .hbm, ⟨39, _⟩ => ⟨S768x768, .f32⟩
  | .hbm, ⟨40, _⟩ => ⟨S768x768, .f32⟩
  | .hbm, ⟨41, _⟩ => ⟨S1x768, .f32⟩
  | .hbm, ⟨42, _⟩ => ⟨S50000x768, .f32⟩
  | .hbm, ⟨43, _⟩ => ⟨S_, .i32⟩
  | .hbm, ⟨44, _⟩ => ⟨S100000, .i32⟩
  | .hbm, ⟨45, _⟩ => ⟨S100000, .i1⟩
  | .hbm, ⟨46, _⟩ => ⟨S_, .i32⟩
  | .hbm, ⟨47, _⟩ => ⟨S100000, .i32⟩
  | .hbm, ⟨48, _⟩ => ⟨S100000, .i32⟩
  | .hbm, ⟨49, _⟩ => ⟨S100000, .i32⟩
  | .hbm, ⟨50, _⟩ => ⟨S100000x1, .i32⟩
  | .hbm, ⟨51, _⟩ => ⟨S100000x768, .f32⟩
  | .hbm, ⟨52, _⟩ => ⟨S_, .f32⟩
  | .hbm, ⟨53, _⟩ => ⟨S50000x768, .f32⟩
  | .hbm, ⟨54, _⟩ => ⟨S100000x1, .i32⟩
  | .hbm, ⟨55, _⟩ => ⟨S50000x768, .f32⟩
  | .hbm, ⟨56, _⟩ => ⟨S768x768, .f32⟩
  | .hbm, ⟨57, _⟩ => ⟨S768x768, .f32⟩
  | .hbm, ⟨58, _⟩ => ⟨S1x768, .f32⟩
  | .hbm, ⟨59, _⟩ => ⟨S50000x768, .f32⟩
  | .local _ .vmem, ⟨0, _⟩ => ⟨S2000x768, .f32⟩
  | .local _ .vmem, ⟨1, _⟩ => ⟨S2000x768, .f32⟩
  | .local _ .vmem, ⟨2, _⟩ => ⟨S2000x768, .f32⟩
  | .local _ .vmem, ⟨3, _⟩ => ⟨S2000x768, .f32⟩
  | .local _ .vmem, ⟨4, _⟩ => ⟨S2000x1, .f32⟩
  | .local _ .vmem, ⟨5, _⟩ => ⟨S2000x1, .f32⟩
  | .local _ .vmem, ⟨6, _⟩ => ⟨S768x768, .f32⟩
  | .local _ .vmem, ⟨7, _⟩ => ⟨S768x768, .f32⟩
  | .local _ .vmem, ⟨8, _⟩ => ⟨S1x768, .f32⟩
  | .local _ .vmem, ⟨9, _⟩ => ⟨S2000x768, .f32⟩
  | .local _ .vmem, ⟨10, _⟩ => ⟨S2000x768, .f32⟩
  | .local _ .vmem, ⟨11, _⟩ => ⟨S2000x768, .f32⟩
  | .local _ .vmem, ⟨12, _⟩ => ⟨S2000x768, .f32⟩
  | .local _ .vmem, ⟨13, _⟩ => ⟨S2000x768, .f32⟩
  | .local _ .vmem, ⟨14, _⟩ => ⟨S2000x768, .f32⟩
  | .local _ .vmem, ⟨15, _⟩ => ⟨S2000x1, .f32⟩
  | .local _ .vmem, ⟨16, _⟩ => ⟨S2000x1, .f32⟩
  | .local _ .vmem, ⟨17, _⟩ => ⟨S768x768, .f32⟩
  | .local _ .vmem, ⟨18, _⟩ => ⟨S768x768, .f32⟩
  | .local _ .vmem, ⟨19, _⟩ => ⟨S1x768, .f32⟩
  | .local _ .vmem, ⟨20, _⟩ => ⟨S2000x768, .f32⟩
  | .local _ .vmem, ⟨21, _⟩ => ⟨S2000x768, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S_S50000 : S_.BroadcastsInDim S50000 (![] : Fin 0 → Fin S50000.rank)
  bcast_S100000_S100000x1_0 : S100000.BroadcastsInDim S100000x1 (![0] : Fin 1 → Fin S100000x1.rank)
  shapeCasts_S50000_S50000x1 : S50000.ShapeCasts S50000x1
  bcast_S_S50000x768 : S_.BroadcastsInDim S50000x768 (![] : Fin 0 → Fin S50000x768.rank)
  transposes_S768x768_S768x768_1_0 : S768x768.Transposes [1, 0] S768x768
  shapeCasts_S768_S1x768 : S768.ShapeCasts S1x768
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x768 : S2000x1.Broadcasts S2000x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  scatter_S50000_S100000x1_S100000_n_0_0_1_wf : ScatterDims.WF S50000 S100000x1 S100000 [] [0] [0] 1
  gather_S50000x768_S100000x1_S100000x768_1_0_n_n_0_1_1768_wf : GatherDims.WF S50000x768 S100000x1 S100000x768 [1] [0] [] [0] [] 1 ![1, 768]
  scatter_S50000x768_S100000x1_S100000x768_1_0_0_1_wf : ScatterDims.WF S50000x768 S100000x1 S100000x768 [1] [0] [0] 1
  dot_S2000x768_S768x768_S2000x768_1_0_0_1_n_n_wf : DotDims.WF S2000x768 S768x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x768.size a ≤ S50000x768.size a
  hwx0_1 : ∀ i : grid0.Coords, EltTy.bits .f32 = 32 ∨ (Rect.block (s := S50000x768) S2000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .f32 = 32 ∨ (Rect.block (s := S768x768) S768x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x768.size a ≤ S50000x768.size a
  hwx0_6 : ∀ i : grid0.Coords, EltTy.bits .f32 = 32 ∨ (Rect.block (s := S50000x768) S2000x768.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S50000x768.size a
  hwx1_0 : ∀ i : grid1.Coords, EltTy.bits .f32 = 32 ∨ (Rect.block (s := S50000x768) S2000x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x768.size a ≤ S50000x768.size a
  hwx1_1 : ∀ i : grid1.Coords, EltTy.bits .f32 = 32 ∨ (Rect.block (s := S50000x768) S2000x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .f32 = 32 ∨ (Rect.block (s := S768x768) S768x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768x768.size a ≤ S768x768.size a
  hwx1_4 : ∀ i : grid1.Coords, EltTy.bits .f32 = 32 ∨ (Rect.block (s := S768x768) S768x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x768.size a ≤ S50000x768.size a
  hwx1_6 : ∀ i : grid1.Coords, EltTy.bits .f32 = 32 ∨ (Rect.block (s := S50000x768) S2000x768.size (cc1_transform_6 i) (hinb1_6 i)).WholeWords (EltTy.packing .f32)

variable [Facts₀]

def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def gather_S50000x768_S100000x1_S100000x768_1_0_n_n_0_1_1768 : GatherDims S50000x768 S100000x1 S100000x768 where
  offsetDims := [1]
  collapsedSliceDims := [0]
  operandBatchingDims := []
  startIndicesBatchingDims := []
  startIndexMap := [0]
  indexVectorDim := 1
  sliceSizes := ![1, 768]
  wf := gather_S50000x768_S100000x1_S100000x768_1_0_n_n_0_1_1768_wf
def scatter_S50000x768_S100000x1_S100000x768_1_0_0_1 : ScatterDims S50000x768 S100000x1 S100000x768 where
  updateWindowDims := [1]
  insertedWindowDims := [0]
  scatterDimsToOperandDims := [0]
  indexVectorDim := 1
  wf := scatter_S50000x768_S100000x1_S100000x768_1_0_0_1_wf
def dot_S2000x768_S768x768_S2000x768_1_0_0_1_n_n : DotDims S2000x768 S768x768 S2000x768 where
  lhsContracting := [1]
  rhsContracting := [0]
  lhsNonContracting := [0]
  rhsNonContracting := [1]
  lhsBatch := []
  rhsBatch := []
  wf := dot_S2000x768_S768x768_S2000x768_1_0_0_1_n_n_wf

abbrev win0_0 : Pipeline.Window sig grid0 :=
  Pipeline.Window.ofSpec (Memref.whole main_v21) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2000x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S768x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x100000 : Shape := ⟨2, ![2, 100000]⟩
abbrev S768x768 : Shape := ⟨2, ![768, 768]⟩
abbrev S768 : Shape := ⟨1, ![768]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x768 : Shape := ⟨2, ![100000, 768]⟩
abbrev S50000 : Shape := ⟨1, ![50000]⟩
abbrev S50000x1 : Shape := ⟨2, ![50000, 1]⟩
abbrev S1x768 : Shape := ⟨2, ![1, 768]⟩

abbrev nBuf : Space → Nat
  | .hbm => 83
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x100000, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S1x100000, .i32⟩
  | .hbm, ⟨9, _⟩ => ⟨S100000, .i32⟩
  | .hbm, ⟨10, _⟩ => ⟨S1x100000, .i32⟩
  | .hbm, ⟨11, _⟩ => ⟨S100000, .i32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x768, .f32⟩
  | .hbm, ⟨21, _⟩ => ⟨S_, .f32⟩
  | .hbm, ⟨22, _⟩ => ⟨S50000x768, .f32⟩
  | .hbm, ⟨23, _⟩ => ⟨S100000x1, .i32⟩
  | .hbm, ⟨24, _⟩ => ⟨S50000x768, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S50000, .f32⟩
  | .hbm, ⟨29, _⟩ => ⟨S100000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x768, .f32⟩
  | .hbm, ⟨37, _⟩ => ⟨S50000x768, .f32⟩
  | .hbm, ⟨38, _⟩ => ⟨S768x768, .f32⟩
  | .hbm, ⟨39, _⟩ => ⟨S50000x768, .f32⟩
  | .hbm, ⟨40, _⟩ => ⟨S1x768, .f32⟩
  | .hbm, ⟨41, _⟩ => ⟨S50000x768, .f32⟩
  | .hbm, ⟨42, _⟩ => ⟨S50000x768, .f32⟩
  | .hbm, ⟨43, _⟩ => ⟨S768x768, .f32⟩
  | .hbm, ⟨44, _⟩ => ⟨S50000x768, .f32⟩
  | .hbm, ⟨45, _⟩ => ⟨S50000x768, .f32⟩
  | .hbm, ⟨46, _⟩ => ⟨S_, .f32⟩
  | .hbm, ⟨47, _⟩ => ⟨S50000x768, .f32⟩
  | .hbm, ⟨48, _⟩ => ⟨S50000x768, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x768, .f32⟩
  | .hbm, ⟨58, _⟩ => ⟨S_, .f32⟩
  | .hbm, ⟨59, _⟩ => ⟨S50000x768, .f32⟩
  | .hbm, ⟨60, _⟩ => ⟨S100000x1, .i32⟩
  | .hbm, ⟨61, _⟩ => ⟨S50000x768, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S50000, .f32⟩
  | .hbm, ⟨66, _⟩ => ⟨S100000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x768, .f32⟩
  | .hbm, ⟨74, _⟩ => ⟨S50000x768, .f32⟩
  | .hbm, ⟨75, _⟩ => ⟨S768x768, .f32⟩
  | .hbm, ⟨76, _⟩ => ⟨S50000x768, .f32⟩
  | .hbm, ⟨77, _⟩ => ⟨S1x768, .f32⟩
  | .hbm, ⟨78, _⟩ => ⟨S50000x768, .f32⟩
  | .hbm, ⟨79, _⟩ => ⟨S50000x768, .f32⟩
  | .hbm, ⟨80, _⟩ => ⟨S768x768, .f32⟩
  | .hbm, ⟨81, _⟩ => ⟨S50000x768, .f32⟩
  | .hbm, ⟨82, _⟩ => ⟨S50000x768, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S50000x768 : S_.BroadcastsInDim S50000x768 (![] : Fin 0 → Fin S50000x768.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x768_0_1 : S50000x1.BroadcastsInDim S50000x768 (![0, 1] : Fin 2 → Fin S50000x768.rank)
  transposes_S768x768_S768x768_1_0 : S768x768.Transposes [1, 0] S768x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  gather_S50000x768_S100000x1_S100000x768_1_0_n_n_0_1_1768_wf : GatherDims.WF S50000x768 S100000x1 S100000x768 [1] [0] [] [0] [] 1 ![1, 768]
  scatter_S50000x768_S100000x1_S100000x768_1_0_0_1_wf : ScatterDims.WF S50000x768 S100000x1 S100000x768 [1] [0] [0] 1
  scatter_S50000_S100000x1_S100000_n_0_0_1_wf : ScatterDims.WF S50000 S100000x1 S100000 [] [0] [0] 1
  dot_S50000x768_S768x768_S50000x768_1_0_0_1_n_n_wf : DotDims.WF S50000x768 S768x768 S50000x768 [1] [0] [0] [1] [] []

variable [Facts₀]

def gather_S50000x768_S100000x1_S100000x768_1_0_n_n_0_1_1768 : GatherDims S50000x768 S100000x1 S100000x768 where
  offsetDims := [1]
  collapsedSliceDims := [0]
  operandBatchingDims := []
  startIndicesBatchingDims := []
  startIndexMap := [0]
  indexVectorDim := 1
  sliceSizes := ![1, 768]
  wf := gather_S50000x768_S100000x1_S100000x768_1_0_n_n_0_1_1768_wf
def scatter_S50000x768_S100000x1_S100000x768_1_0_0_1 : ScatterDims S50000x768 S100000x1 S100000x768 where
  updateWindowDims := [1]
  insertedWindowDims := [0]
  scatterDimsToOperandDims := [0]
  indexVectorDim := 1
  wf := scatter_S50000x768_S100000x1_S100000x768_1_0_0_1_wf
def scatter_S50000_S100000x1_S100000_n_0_0_1 : ScatterDims S50000 S100000x1 S100000 where
  updateWindowDims := []
  insertedWindowDims := [0]
  scatterDimsToOperandDims := [0]
  indexVectorDim := 1
  wf := scatter_S50000_S100000x1_S100000_n_0_0_1_wf
def dot_S50000x768_S768x768_S50000x768_1_0_0_1_n_n : DotDims S50000x768 S768x768 S50000x768 where
  lhsContracting := [1]
  rhsContracting := [0]
  lhsNonContracting := [0]
  rhsNonContracting := [1]
  lhsBatch := []
  rhsBatch := []
  wf := dot_S50000x768_S768x768_S50000x768_1_0_0_1_n_n_wf

class Facts : Prop extends Facts₀ where

variable [Facts]
-- ==== Proof.SageRun.lean ====
/-
  The whole program's run with its result NAMED: every weakly fair execution of the idealized kernel
  program terminates, nothing faulting, with the result buffer holding what the last segment boundary's
  contents give it, and the eight argument arrays as launched.

  The program is six segments — three stretches of host operations, the first launch, a fourth stretch, the
  second launch — and the contents of every buffer at each boundary are a fold through them. The last
  boundary's contents at the result buffer are what the second launch's write-backs leave in its output
  array; the modules on the two launches and on the host stretches read that back to a function of the
  arguments.
-/
import proofs.«101068_j38946763440879_2_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_named : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Sage.Run

end
-- ==== Proof.SageHostDefs.lean ====
/-
  The pieces the host operations around the two launches compute, as functions of the argument arrays.

  From the edge list `ei` (2 × 100000 node numbers): `dstCol ei` is the column of destination nodes,
  `srcCol ei` the column of source nodes (a negative number `s` read as `s + 50000`). For node features `y`,
  `segSum ei y` has in row `n` the sum, over the edges with destination `n`, of the source node's row of `y`;
  `degClip ei` has in entry `n` the maximum of 1 and the number of edges with destination `n`, and
  `invDeg ei` is the column of the reciprocals `1 / degClip`. `tr W` is a weight matrix transposed and
  `biasRow b` a bias as a 1 × 768 row.
-/
import proofs.«101068_j38946763440879_2_alg».proof.Proof.Gen.KernelIdeal
import Idealize.ShloMosaic.PureOps.Ideal

set_option maxRecDepth 16384

noncomputable section

namespace Cert.Sage.Host

open Cert.KernelIdeal Cert.KernelIdeal.Gen Idealize.ShloMosaic Idealize.ShloMosaic.TcCoe Idealize.SL.Sem

/-- Row 1 of the edge list: the destination node of every edge. -/
def dstRow (ei : IVec S2x100000 32) : IVec S100000 32 :=
  shapeCast _ (extractStridedSlice S1x100000 ![1, 0] ei slices_S2x100000_S1x100000_1_0) shapeCasts_S1x100000_S100000

/-- Row 0 of the edge list: the source node of every edge, as written. -/
def srcRow (ei : IVec S2x100000 32) : IVec S100000 32 :=
  shapeCast _ (extractStridedSlice S1x100000 ![0, 0] ei slices_S2x100000_S1x100000_0_0) shapeCasts_S1x100000_S100000

/-- The destination nodes as a column of 100000 entries. -/
def dstCol (ei : IVec S2x100000 32) : IVec S100000x1 32 :=
  broadcastInDim S100000x1 ![0] bcast_S100000_S100000x1_0 (dstRow ei)

/-- The source nodes, a negative entry `s` read as `s + 50000`, as a column of 100000 entries. -/
def srcCol (ei : IVec S2x100000 32) : IVec S100000x1 32 :=
  broadcastInDim S100000x1 ![0] bcast_S100000_S100000x1_0
    (select (cmpi .slt (srcRow ei) (broadcastInDim S100000 ![] bcast_S_S100000 (constantI S_ 32 0#32)))
      (addi (srcRow ei) (broadcastInDim S100000 ![] bcast_S_S100000 (constantI S_ 32 50000#32)))
      (srcRow ei))

/-- Row `n` is the sum, over the edges with destination `n`, of the source node's row of `y`. -/
def segSum (ei : IVec S2x100000 32) (y : FVec Ideal S50000x768 .f32) : FVec Ideal S50000x768 .f32 :=
  Host.scatterAdd (F := Ideal) scatter_S50000x768_S100000x1_S100000x768_1_0_0_1
    (broadcastInDim S50000x768 ![] bcast_S_S50000x768 (constant S_ .f32 0x00000000#32))
    (dstCol ei)
    (Host.gather gather_S50000x768_S100000x1_S100000x768_1_0_n_n_0_1_1768 y (srcCol ei))

/-- Entry `n` is the maximum of 1 and the number of edges with destination `n`. -/
def degClip (ei : IVec S2x100000 32) : FVec Ideal S50000 .f32 :=
  maximumf (F := Ideal) (broadcastInDim S50000 ![] bcast_S_S50000 (id (constant S_ .f32 0x3F800000#32)))
    (Host.scatterAdd scatter_S50000_S100000x1_S100000_n_0_0_1
      (broadcastInDim S50000 ![] bcast_S_S50000 (constant S_ .f32 0x00000000#32))
      (dstCol ei)
      (broadcastInDim S100000 ![] bcast_S_S100000 (constant S_ .f32 0x3F800000#32)))

/-- The column of reciprocals `1 / degClip`. -/
def invDeg (ei : IVec S2x100000 32) : FVec Ideal S50000x1 .f32 :=
  shapeCast _ (Host.divf (F := Ideal) (broadcastInDim S50000 ![] bcast_S_S50000 (constant S_ .f32 0x3F800000#32)) (degClip ei))
    shapeCasts_S50000_S50000x1

/-- A weight matrix transposed. -/
def tr (W : FVec Ideal S768x768 .f32) : FVec Ideal S768x768 .f32 :=
  transpose S768x768 [1, 0] W transposes_S768x768_S768x768_1_0

/-- A bias as a 1 × 768 row. -/
def biasRow (b : FVec Ideal S768 .f32) : FVec Ideal S1x768 .f32 :=
  shapeCast _ b shapeCasts_S768_S1x768

end Cert.Sage.Host

end
-- ==== Proof.SageTile.lean ====
/-
  One tile of a SAGE layer, entry by entry, over the extended reals.

  The kernel body works on a tile of 2000 rows. With `s` the tile of neighbour sums, `d` the column of
  reciprocal degrees, `x` the tile of node features, `wl`, `wr` the two (already transposed) weight
  matrices and `b` the bias row, its result at row `p`, column `q` is

      (∑ₖ (s p k · d p) · wl k q  +  ∑ₖ x p k · wr k q)  +  b q

  (followed, in the first layer, by the maximum with zero). The two matrix products into a zero
  accumulator are plain sums over the contracted axis; the reciprocal-degree column is broadcast along the
  row, the bias row along the column.
-/
import proofs.«101068_j38946763440879_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Sage.Tile

open Cert.KernelIdeal Cert.KernelIdeal.Gen Idealize.ShloMosaic Idealize.ShloMosaic.ValueIdx

/-- The pre-activation entry of a tile at row `p`, column `q`. -/
def entry (s x : S2000x768.Idx → EReal) (d : S2000x1.Idx → EReal) (wl wr : S768x768.Idx → EReal) (b : S1x768.Idx → EReal)
    (p : Fin 2000) (q : Fin 768) : EReal :=
  ((∑ k : Fin 768, (s (ix2 p k) * d (ix2 p (0 : Fin 1))) * wl (ix2 k q)) + ∑ k : Fin 768, x (ix2 p k) * wr (ix2 k q))
    + b (ix2 (0 : Fin 1) q)

theorem lhs_0 (i : S2000x768.Idx) (q : dot_S2000x768_S768x768_S2000x768_1_0_0_1_n_n.contr.Idx) : (dot_S2000x768_S768x768_S2000x768_1_0_0_1_n_n.lhsIdx i q 0).val = (i 0).val := by
  unfold DotDims.lhsIdx
  rw [dif_neg (show ¬(0 : Fin S2000x768.rank) ∈ dot_S2000x768_S768x768_S2000x768_1_0_0_1_n_n.lhsBatch by decide),
    dif_pos (show (0 : Fin S2000x768.rank) ∈ dot_S2000x768_S768x768_S2000x768_1_0_0_1_n_n.lhsNonContracting by decide)]
  rfl
theorem lhs_1 (i : S2000x768.Idx) (q : dot_S2000x768_S768x768_S2000x768_1_0_0_1_n_n.contr.Idx) : (dot_S2000x768_S768x768_S2000x768_1_0_0_1_n_n.lhsIdx i q 1).val = (q ⟨0, by decide⟩).val :=
  dot_S2000x768_S768x768_S2000x768_1_0_0_1_n_n.lhsIdx_val_of_single rfl i q
theorem rhs_0 (i : S2000x768.Idx) (q : dot_S2000x768_S768x768_S2000x768_1_0_0_1_n_n.contr.Idx) : (dot_S2000x768_S768x768_S2000x768_1_0_0_1_n_n.rhsIdx i q 0).val = (q ⟨0, by decide⟩).val :=
  dot_S2000x768_S768x768_S2000x768_1_0_0_1_n_n.rhsIdx_val_of_single rfl i q
theorem rhs_1 (i : S2000x768.Idx) (q : dot_S2000x768_S768x768_S2000x768_1_0_0_1_n_n.contr.Idx) : (dot_S2000x768_S768x768_S2000x768_1_0_0_1_n_n.rhsIdx i q 1).val = (i 1).val := by
  unfold DotDims.rhsIdx
  rw [dif_neg (show ¬(1 : Fin S768x768.rank) ∈ dot_S2000x768_S768x768_S2000x768_1_0_0_1_n_n.rhsBatch by decide),
    dif_pos (show (1 : Fin S768x768.rank) ∈ dot_S2000x768_S768x768_S2000x768_1_0_0_1_n_n.rhsNonContracting by decide)]
  rfl

/-- A tile times a weight matrix, into a zero accumulator, at `(p, q)`: the sum over the 768 contracted positions. -/
theorem matmul_zero_apply (l : FVec Ideal S2000x768 .f32) (r : FVec Ideal S768x768 .f32) (p : Fin 2000) (q : Fin 768) :
    matmul (F := Ideal) dot_S2000x768_S768x768_S2000x768_1_0_0_1_n_n (some .fp32) l r (constant (F := Ideal) S2000x768 .f32 0x00000000#32) (ix2 p q)
      = ∑ k : Fin 768, l (ix2 p k) * r (ix2 k q) := by
  simp only [matmul]
  rw [Ideal.matmul_constant_zero_apply, ← Equiv.sum_comp (contrEquiv1 dot_S2000x768_S768x768_S2000x768_1_0_0_1_n_n 768 rfl rfl).symm]
  refine Finset.sum_congr rfl fun k _ => ?_
  have hk := contrEquiv1_symm_val dot_S2000x768_S768x768_S2000x768_1_0_0_1_n_n 768 rfl rfl k
  have el : dot_S2000x768_S768x768_S2000x768_1_0_0_1_n_n.lhsIdx (ix2 p q) ((contrEquiv1 dot_S2000x768_S768x768_S2000x768_1_0_0_1_n_n 768 rfl rfl).symm k) = ix2 p k :=
    funext fun a => Fin.ext (by
      match a with
      | ⟨0, _⟩ => exact lhs_0 _ _
      | ⟨1, _⟩ => exact (lhs_1 _ _).trans hk)
  have er : dot_S2000x768_S768x768_S2000x768_1_0_0_1_n_n.rhsIdx (ix2 p q) ((contrEquiv1 dot_S2000x768_S768x768_S2000x768_1_0_0_1_n_n 768 rfl rfl).symm k) = ix2 k q :=
    funext fun a => Fin.ext (by
      match a with
      | ⟨0, _⟩ => exact (rhs_0 _ _).trans hk
      | ⟨1, _⟩ => exact rhs_1 _ _)
  rw [el, er]

/-- The reciprocal-degree column broadcast along the row: entry `(p, k)` is the column's entry at row `p`. -/
theorem bcast_col_apply (d : S2000x1.Idx → EReal) (p : Fin 2000) (k : Fin 768) :
    broadcastTo S2000x768 d broadcasts_S2000x1_S2000x768 (ix2 p k) = d (ix2 p (0 : Fin 1)) :=
  broadcastTo_apply d broadcasts_S2000x1_S2000x768 (ix2 p k) (ix2 p (0 : Fin 1)) (fun a => by
    match a with
    | ⟨0, _⟩ => rfl
    | ⟨1, _⟩ => rfl)

/-- The bias row broadcast along the column: entry `(p, q)` is the row's entry at column `q`. -/
theorem bcast_row_apply (b : S1x768.Idx → EReal) (p : Fin 2000) (q : Fin 768) :
    broadcastTo S2000x768 b broadcasts_S1x768_S2000x768 (ix2 p q) = b (ix2 (0 : Fin 1) q) :=
  broadcastTo_apply b broadcasts_S1x768_S2000x768 (ix2 p q) (ix2 (0 : Fin 1) q) (fun a => by
    match a with
    | ⟨0, _⟩ => rfl
    | ⟨1, _⟩ => rfl)

/-- The second layer's payload at `(p, q)`. -/
theorem pay1_apply (s : Vec Ideal S2000x768 .f32) (d : Vec Ideal S2000x1 .f32) (x : Vec Ideal S2000x768 .f32)
    (wl wr : Vec Ideal S768x768 .f32) (b : Vec Ideal S1x768 .f32) (p : Fin 2000) (q : Fin 768) :
    k1_pay1 (F := Ideal) s d x wl wr b (ix2 p q) = entry s x d wl wr b p q := by
  unfold k1_pay1 entry
  simp only [shapeCast_self]
  rw [addf_apply, addf_apply, matmul_zero_apply, matmul_zero_apply, bcast_row_apply]
  simp only [mulf_apply, bcast_col_apply]

/-- The first layer's payload at `(p, q)`: the same, then the maximum with zero. -/
theorem pay0_apply (s : Vec Ideal S2000x768 .f32) (d : Vec Ideal S2000x1 .f32) (x : Vec Ideal S2000x768 .f32)
    (wl wr : Vec Ideal S768x768 .f32) (b : Vec Ideal S1x768 .f32) (p : Fin 2000) (q : Fin 768) :
    k0_pay1 (F := Ideal) s d x wl wr b (ix2 p q) = max (entry s x d wl wr b p q) (Ideal.ofBits .f32 0x00000000#32) := by
  unfold k0_pay1 entry
  simp only [shapeCast_self]
  rw [maximumf_apply, addf_apply, addf_apply, matmul_zero_apply, matmul_zero_apply, bcast_row_apply]
  simp only [mulf_apply, bcast_col_apply]
  rfl

end Cert.Sage.Tile

end
-- ==== Proof.SageLayer.lean ====
/-
  A whole SAGE layer as ONE function of its six operand arrays, entry by entry, and the tile lemma: a
  2000-row tile of the kernel's result, computed from tiles of the operands, is the matching block of
  that function.

  With `S` the neighbour sums, `X` the node features (both 50000 × 768), `D` the column of reciprocal
  degrees (50000 × 1), `WL`, `WR` the transposed weights (768 × 768) and `B` the bias row (1 × 768), the
  layer's entry at node `P`, feature `Q` is

      (∑ₖ (S P k · D P) · WL k Q  +  ∑ₖ X P k · WR k Q)  +  B Q ,

  followed in the first layer by the maximum with zero. Row `P` of the result depends on row `P` of `S`,
  `X`, `D` only, which is why a row tile of the operands gives the same row tile of the result.
-/
import proofs.«101068_j38946763440879_2_alg».proof.Proof.SageTile

noncomputable section

namespace Cert.Sage.Layer

open Cert.KernelIdeal Cert.KernelIdeal.Gen Idealize.ShloMosaic Idealize.ShloMosaic.ValueIdx

/-- The pre-activation entry of the layer at node `P`, feature `Q`. -/
def pre (S X : S50000x768.Idx → EReal) (D : S50000x1.Idx → EReal) (WL WR : S768x768.Idx → EReal) (B : S1x768.Idx → EReal)
    (P : Fin 50000) (Q : Fin 768) : EReal :=
  ((∑ k : Fin 768, (S (ix2 P k) * D (ix2 P (0 : Fin 1))) * WL (ix2 k Q)) + ∑ k : Fin 768, X (ix2 P k) * WR (ix2 k Q))
    + B (ix2 (0 : Fin 1) Q)

/-- The layer: `relu` says whether the maximum with zero follows. -/
def layer (relu : Bool) (S X : S50000x768.Idx → EReal) (D : S50000x1.Idx → EReal) (WL WR : S768x768.Idx → EReal)
    (B : S1x768.Idx → EReal) : S50000x768.Idx → EReal := fun i =>
  if relu then max (pre S X D WL WR B (i 0) (i 1)) (Ideal.ofBits .f32 0x00000000#32) else pre S X D WL WR B (i 0) (i 1)

theorem layer_true (S X : S50000x768.Idx → EReal) (D : S50000x1.Idx → EReal) (WL WR : S768x768.Idx → EReal)
    (B : S1x768.Idx → EReal) (i : S50000x768.Idx) :
    layer true S X D WL WR B i = max (pre S X D WL WR B (i 0) (i 1)) (Ideal.ofBits .f32 0x00000000#32) := rfl

theorem layer_false (S X : S50000x768.Idx → EReal) (D : S50000x1.Idx → EReal) (WL WR : S768x768.Idx → EReal)
    (B : S1x768.Idx → EReal) (i : S50000x768.Idx) :
    layer false S X D WL WR B i = pre S X D WL WR B (i 0) (i 1) := rfl

/-- A tile's pre-activation entry is the layer's, when the tile's row `y 0` is the arrays' row `i 0` and its
    column `y 1` the arrays' column `i 1`. -/
theorem entry_eq_pre (S X : S50000x768.Idx → EReal) (D : S50000x1.Idx → EReal) (WL WR : S768x768.Idx → EReal) (B : S1x768.Idx → EReal)
    (s x : S2000x768.Idx → EReal) (d : S2000x1.Idx → EReal) (wl wr : S768x768.Idx → EReal) (b : S1x768.Idx → EReal)
    (p : Fin 2000) (q : Fin 768) (P : Fin 50000) (Q : Fin 768)
    (hs : ∀ k : Fin 768, s (ix2 p k) = S (ix2 P k)) (hx : ∀ k : Fin 768, x (ix2 p k) = X (ix2 P k))
    (hd : d (ix2 p (0 : Fin 1)) = D (ix2 P (0 : Fin 1)))
    (hwl : ∀ k : Fin 768, wl (ix2 k q) = WL (ix2 k Q)) (hwr : ∀ k : Fin 768, wr (ix2 k q) = WR (ix2 k Q))
    (hb : b (ix2 (0 : Fin 1) q) = B (ix2 (0 : Fin 1) Q)) :
    Tile.entry s x d wl wr b p q = pre S X D WL WR B P Q := by
  unfold Tile.entry pre
  rw [hd, hb]
  congr 2
  · exact Finset.sum_congr rfl fun k _ => by rw [hs k, hwl k]
  · exact Finset.sum_congr rfl fun k _ => by rw [hx k, hwr k]

/-- THE FIRST LAYER'S TILE: the body's payload at tile index `y` is the layer (with the maximum) at array index `i`. -/
theorem tile0 (S X : S50000x768.Idx → EReal) (D : S50000x1.Idx → EReal) (WL WR : S768x768.Idx → EReal) (B : S1x768.Idx → EReal)
    (s : Vec Ideal S2000x768 .f32) (d : Vec Ideal S2000x1 .f32) (x : Vec Ideal S2000x768 .f32)
    (wl wr : Vec Ideal S768x768 .f32) (b : Vec Ideal S1x768 .f32) (y : S2000x768.Idx) (i : S50000x768.Idx)
    (hs : ∀ k : Fin 768, s (ix2 (y 0) k) = S (ix2 (i 0) k)) (hx : ∀ k : Fin 768, x (ix2 (y 0) k) = X (ix2 (i 0) k))
    (hd : d (ix2 (y 0) (0 : Fin 1)) = D (ix2 (i 0) (0 : Fin 1)))
    (hwl : ∀ k : Fin 768, wl (ix2 k (y 1)) = WL (ix2 k (i 1))) (hwr : ∀ k : Fin 768, wr (ix2 k (y 1)) = WR (ix2 k (i 1)))
    (hb : b (ix2 (0 : Fin 1) (y 1)) = B (ix2 (0 : Fin 1) (i 1))) :
    k0_pay1 (F := Ideal) s d x wl wr b y = layer true S X D WL WR B i := by
  rw [layer_true, ← entry_eq_pre S X D WL WR B s x d wl wr b (y 0) (y 1) (i 0) (i 1) hs hx hd hwl hwr hb]
  have hy : y = ix2 (y 0) (y 1) := eq_ix2 y
  rw [hy]
  exact Tile.pay0_apply s d x wl wr b (y 0) (y 1)

/-- THE SECOND LAYER'S TILE: the same without the maximum. -/
theorem tile1 (S X : S50000x768.Idx → EReal) (D : S50000x1.Idx → EReal) (WL WR : S768x768.Idx → EReal) (B : S1x768.Idx → EReal)
    (s : Vec Ideal S2000x768 .f32) (d : Vec Ideal S2000x1 .f32) (x : Vec Ideal S2000x768 .f32)
    (wl wr : Vec Ideal S768x768 .f32) (b : Vec Ideal S1x768 .f32) (y : S2000x768.Idx) (i : S50000x768.Idx)
    (hs : ∀ k : Fin 768, s (ix2 (y 0) k) = S (ix2 (i 0) k)) (hx : ∀ k : Fin 768, x (ix2 (y 0) k) = X (ix2 (i 0) k))
    (hd : d (ix2 (y 0) (0 : Fin 1)) = D (ix2 (i 0) (0 : Fin 1)))
    (hwl : ∀ k : Fin 768, wl (ix2 k (y 1)) = WL (ix2 k (i 1))) (hwr : ∀ k : Fin 768, wr (ix2 k (y 1)) = WR (ix2 k (i 1)))
    (hb : b (ix2 (0 : Fin 1) (y 1)) = B (ix2 (0 : Fin 1) (i 1))) :
    k1_pay1 (F := Ideal) s d x wl wr b y = layer false S X D WL WR B i := by
  rw [layer_false, ← entry_eq_pre S X D WL WR B s x d wl wr b (y 0) (y 1) (i 0) (i 1) hs hx hd hwl hwr hb]
  have hy : y = ix2 (y 0) (y 1) := eq_ix2 y
  rw [hy]
  exact Tile.pay1_apply s d x wl wr b (y 0) (y 1)

end Cert.Sage.Layer

end
-- ==== Proof.SageRegion0.lean ====
/-
  The first launch's output array, whole: whatever the six operand arrays hold when the launch is entered,
  the array it leaves is the first SAGE layer of them.

  The launch walks 25 grid points; point `t` stages rows `2000·t … 2000·t + 1999` of the neighbour sums, of the
  node features and of the reciprocal-degree column, the two weight matrices and the bias row whole, and
  writes rows `2000·t … 2000·t + 1999` of the result. Row `P` of the layer depends on row `P` of the
  row-tiled operands only, so what point `t` writes is block `t` of the layer; the 25 blocks cover all
  50000 rows, so the array ends holding the layer.
-/
import proofs.«101068_j38946763440879_2_alg».proof.Proof.Gen.KernelIdeal.Frame
import proofs.«101068_j38946763440879_2_alg».proof.Proof.SageLayer
import Idealize.ShloMosaic.Lib.Pipeline.Value

set_option maxRecDepth 16384

noncomputable section

namespace Cert.Sage.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer of the operand arrays as the launch finds them. -/
abbrev G (c : Dev nD) : S50000x768.Idx → EReal :=
  Layer.layer true (V c main_v21) (V c main_arg0) (V c main_v11) (V c main_v22) (V c main_v23) (V c main_v24)

/-- The block indices, decided over the 25 points: the three row-tiled operands move with the output (block row `t`,
    block column 0); the weights and the bias stay at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the layer. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x768) hz, View.ld_unit_zero (S := S2000x1) hz,
    View.ld_unit_zero (S := S768x768) hz, View.ld_unit_zero (S := S1x768) hz]
  obtain ⟨e00, e01, e10, e11, e20, e21, e30, e31, e40, e41, e50, e51, e60, e61⟩ := idx_facts t
  funext j
  show k0_pay1 (F := Ideal) (iblk0 V c 0 t) (iblk0 V c 2 t) (iblk0 V c 1 t) (iblk0 V c 3 t) (iblk0 V c 4 t) (iblk0 V c 5 t) j
      = Layer.layer true (V c main_v21) (V c main_arg0) (V c main_v11) (V c main_v22) (V c main_v23) (V c main_v24)
          (((cfg0.win 6).blk t).view.emb j)
  have hj0 : (j 0).val < 2000 := (j 0).isLt
  have hj1 : (j 1).val < 768 := (j 1).isLt
  refine Layer.tile0 (V c main_v21) (V c main_arg0) (V c main_v11) (V c main_v22) (V c main_v23) (V c main_v24)
    (iblk0 V c 0 t) (iblk0 V c 2 t) (iblk0 V c 1 t) (iblk0 V c 3 t) (iblk0 V c 4 t) (iblk0 V c 5 t) j
    (((cfg0.win 6).blk t).view.emb j) ?_ ?_ ?_ ?_ ?_ ?_
  · intro k
    show V c main_v21 (((cfg0.win 0).blk t).view.emb (@ix2 2000 768 (j 0) k))
      = V c main_v21 (@ix2 50000 768 ((((cfg0.win 6).blk t).view.emb j) 0) k)
    refine congrArg _ (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 768 + 1 * k.val = k.val; omega
  · intro k
    show V c main_arg0 (((cfg0.win 1).blk t).view.emb (@ix2 2000 768 (j 0) k))
      = V c main_arg0 (@ix2 50000 768 ((((cfg0.win 6).blk t).view.emb j) 0) k)
    refine congrArg _ (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 768 + 1 * k.val = k.val; omega
  · show V c main_v11 (((cfg0.win 2).blk t).view.emb (@ix2 2000 1 (j 0) (0 : Fin 1)))
      = V c main_v11 (@ix2 50000 1 ((((cfg0.win 6).blk t).view.emb j) 0) (0 : Fin 1))
    refine congrArg _ (funext fun a => Fin.ext ?_)
    match a with
    | ⟨0, _⟩ => show win0_2.index t (0 : Fin 2) * 2000 + 1 * (j 0).val = win0_6.index t (0 : Fin 2) * 2000 + 1 * (j 0).val; omega
    | ⟨1, _⟩ => show win0_2.index t (1 : Fin 2) * 1 + 1 * 0 = 0; omega
  · intro k
    show V c main_v22 (((cfg0.win 3).blk t).view.emb (@ix2 768 768 k (j 1)))
      = V c main_v22 (@ix2 768 768 k ((((cfg0.win 6).blk t).view.emb j) 1))
    refine congrArg _ (funext fun a => Fin.ext ?_)
    match a with
    | ⟨0, _⟩ => show win0_3.index t (0 : Fin 2) * 768 + 1 * k.val = k.val; omega
    | ⟨1, _⟩ => show win0_3.index t (1 : Fin 2) * 768 + 1 * (j 1).val = win0_6.index t (1 : Fin 2) * 768 + 1 * (j 1).val; omega
  · intro k
    show V c main_v23 (((cfg0.win 4).blk t).view.emb (@ix2 768 768 k (j 1)))
      = V c main_v23 (@ix2 768 768 k ((((cfg0.win 6).blk t).view.emb j) 1))
    refine congrArg _ (funext fun a => Fin.ext ?_)
    match a with
    | ⟨0, _⟩ => show win0_4.index t (0 : Fin 2) * 768 + 1 * k.val = k.val; omega
    | ⟨1, _⟩ => show win0_4.index t (1 : Fin 2) * 768 + 1 * (j 1).val = win0_6.index t (1 : Fin 2) * 768 + 1 * (j 1).val; omega
  · show V c main_v24 (((cfg0.win 5).blk t).view.emb (@ix2 1 768 (0 : Fin 1) (j 1)))
      = V c main_v24 (@ix2 1 768 (0 : Fin 1) ((((cfg0.win 6).blk t).view.emb j) 1))
    refine congrArg _ (funext fun a => Fin.ext ?_)
    match a with
    | ⟨0, _⟩ => show win0_5.index t (0 : Fin 2) * 1 + 1 * 0 = 0; omega
    | ⟨1, _⟩ => show win0_5.index t (1 : Fin 2) * 768 + 1 * (j 1).val = win0_6.index t (1 : Fin 2) * 768 + 1 * (j 1).val; omega

/-- An index of the array is in point `t`'s block iff each coordinate is in the block's range on its axis. -/
theorem mem_blk (t : Fin cfg0.N) (i : S50000x768.Idx) :
    i ∈ ((cfg0.win 6).blk t).view.set ↔ ∀ a : Fin 2, win0_6.index t a * S2000x768.size a ≤ (i a).val ∧ (i a).val < win0_6.index t a * S2000x768.size a + S2000x768.size a := by
  show i ∈ ((View.whole main_v25).slice (win0_6.rect t)).set ↔ _
  rw [View.set_slice_whole, Rect.mem_set_unit]
  exact Iff.rfl

/-- Every row is in the block of the point `row / 2000`. -/
theorem cover (i : S50000x768.Idx) : ∃ t : Fin cfg0.N, (cfg0.win 6).flush t = true ∧ i ∈ ((cfg0.win 6).blk t).view.set := by
  have hi0 : (i 0).val < 50000 := (i 0).isLt
  have hi1 : (i 1).val < 768 := (i 1).isLt
  have hN : cfg0.N = 25 := N_0
  let t : Fin cfg0.N := ⟨(i 0).val / 2000, by rw [hN]; omega⟩
  obtain ⟨e00, e01, e10, e11, e20, e21, e30, e31, e40, e41, e50, e51, e60, e61⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 768 ≤ (i 1).val ∧ (i 1).val < win0_6.index t (1 : Fin 2) * 768 + 768; omega

/-- THE ARRAY the launch leaves is the first layer of the operand arrays it found. -/
theorem final (c : Dev nD) : (dat0 V c).arrAt 6 cfg0.N = G V c :=
  (dat0 V c).arrAt_eq_of_cover 6 (G V c) (fun t _ => flushed_eq V c t) (cover)

end Cert.Sage.Region0

end
-- ==== Proof.SageRegion1.lean ====
/-
  The second launch's output array, whole: whatever the six operand arrays hold when the launch is entered,
  the array it leaves is the second SAGE layer of them (no maximum with zero).

  The launch walks 25 grid points; point `t` stages rows `2000·t … 2000·t + 1999` of the neighbour sums, of the
  first layer's output and of the reciprocal-degree column, the two weight matrices and the bias row whole, and
  writes rows `2000·t … 2000·t + 1999` of the result. Row `P` of the layer depends on row `P` of the
  row-tiled operands only, so what point `t` writes is block `t` of the layer; the 25 blocks cover all
  50000 rows, so the array ends holding the layer.
-/
import proofs.«101068_j38946763440879_2_alg».proof.Proof.Gen.KernelIdeal.Frame
import proofs.«101068_j38946763440879_2_alg».proof.Proof.SageLayer
import Idealize.ShloMosaic.Lib.Pipeline.Value

set_option maxRecDepth 16384

noncomputable section

namespace Cert.Sage.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The second layer of the operand arrays as the launch finds them. -/
abbrev G (c : Dev nD) : S50000x768.Idx → EReal :=
  Layer.layer false (V c main_v35) (V c main_v25) (V c main_v11) (V c main_v36) (V c main_v37) (V c main_v38)

/-- The block indices, decided over the 25 points: the three row-tiled operands move with the output (block row `t`,
    block column 0); the weights and the bias stay at block (0, 0). -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the layer. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x768) hz, View.ld_unit_zero (S := S2000x1) hz,
    View.ld_unit_zero (S := S768x768) hz, View.ld_unit_zero (S := S1x768) hz]
  obtain ⟨e00, e01, e10, e11, e20, e21, e30, e31, e40, e41, e50, e51, e60, e61⟩ := idx_facts t
  funext j
  show k1_pay1 (F := Ideal) (iblk1 V c 0 t) (iblk1 V c 2 t) (iblk1 V c 1 t) (iblk1 V c 3 t) (iblk1 V c 4 t) (iblk1 V c 5 t) j
      = Layer.layer false (V c main_v35) (V c main_v25) (V c main_v11) (V c main_v36) (V c main_v37) (V c main_v38)
          (((cfg1.win 6).blk t).view.emb j)
  have hj0 : (j 0).val < 2000 := (j 0).isLt
  have hj1 : (j 1).val < 768 := (j 1).isLt
  refine Layer.tile1 (V c main_v35) (V c main_v25) (V c main_v11) (V c main_v36) (V c main_v37) (V c main_v38)
    (iblk1 V c 0 t) (iblk1 V c 2 t) (iblk1 V c 1 t) (iblk1 V c 3 t) (iblk1 V c 4 t) (iblk1 V c 5 t) j
    (((cfg1.win 6).blk t).view.emb j) ?_ ?_ ?_ ?_ ?_ ?_
  · intro k
    show V c main_v35 (((cfg1.win 0).blk t).view.emb (@ix2 2000 768 (j 0) k))
      = V c main_v35 (@ix2 50000 768 ((((cfg1.win 6).blk t).view.emb j) 0) k)
    refine congrArg _ (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 768 + 1 * k.val = k.val; omega
  · intro k
    show V c main_v25 (((cfg1.win 1).blk t).view.emb (@ix2 2000 768 (j 0) k))
      = V c main_v25 (@ix2 50000 768 ((((cfg1.win 6).blk t).view.emb j) 0) k)
    refine congrArg _ (funext fun a => Fin.ext ?_)
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 768 + 1 * k.val = k.val; omega
  · show V c main_v11 (((cfg1.win 2).blk t).view.emb (@ix2 2000 1 (j 0) (0 : Fin 1)))
      = V c main_v11 (@ix2 50000 1 ((((cfg1.win 6).blk t).view.emb j) 0) (0 : Fin 1))
    refine congrArg _ (funext fun a => Fin.ext ?_)
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 1 + 1 * 0 = 0; omega
  · intro k
    show V c main_v36 (((cfg1.win 3).blk t).view.emb (@ix2 768 768 k (j 1)))
      = V c main_v36 (@ix2 768 768 k ((((cfg1.win 6).blk t).view.emb j) 1))
    refine congrArg _ (funext fun a => Fin.ext ?_)
    match a with
    | ⟨0, _⟩ => show win1_3.index t (0 : Fin 2) * 768 + 1 * k.val = k.val; omega
    | ⟨1, _⟩ => show win1_3.index t (1 : Fin 2) * 768 + 1 * (j 1).val = win1_6.index t (1 : Fin 2) * 768 + 1 * (j 1).val; omega
  · intro k
    show V c main_v37 (((cfg1.win 4).blk t).view.emb (@ix2 768 768 k (j 1)))
      = V c main_v37 (@ix2 768 768 k ((((cfg1.win 6).blk t).view.emb j) 1))
    refine congrArg _ (funext fun a => Fin.ext ?_)
    match a with
    | ⟨0, _⟩ => show win1_4.index t (0 : Fin 2) * 768 + 1 * k.val = k.val; omega
    | ⟨1, _⟩ => show win1_4.index t (1 : Fin 2) * 768 + 1 * (j 1).val = win1_6.index t (1 : Fin 2) * 768 + 1 * (j 1).val; omega
  · show V c main_v38 (((cfg1.win 5).blk t).view.emb (@ix2 1 768 (0 : Fin 1) (j 1)))
      = V c main_v38 (@ix2 1 768 (0 : Fin 1) ((((cfg1.win 6).blk t).view.emb j) 1))
    refine congrArg _ (funext fun a => Fin.ext ?_)
    match a with
    | ⟨0, _⟩ => show win1_5.index t (0 : Fin 2) * 1 + 1 * 0 = 0; omega
    | ⟨1, _⟩ => show win1_5.index t (1 : Fin 2) * 768 + 1 * (j 1).val = win1_6.index t (1 : Fin 2) * 768 + 1 * (j 1).val; omega

/-- An index of the array is in point `t`'s block iff each coordinate is in the block's range on its axis. -/
theorem mem_blk (t : Fin cfg1.N) (i : S50000x768.Idx) :
    i ∈ ((cfg1.win 6).blk t).view.set ↔ ∀ a : Fin 2, win1_6.index t a * S2000x768.size a ≤ (i a).val ∧ (i a).val < win1_6.index t a * S2000x768.size a + S2000x768.size a := by
  show i ∈ ((View.whole main_v39).slice (win1_6.rect t)).set ↔ _
  rw [View.set_slice_whole, Rect.mem_set_unit]
  exact Iff.rfl

/-- Every row is in the block of the point `row / 2000`. -/
theorem cover (i : S50000x768.Idx) : ∃ t : Fin cfg1.N, (cfg1.win 6).flush t = true ∧ i ∈ ((cfg1.win 6).blk t).view.set := by
  have hi0 : (i 0).val < 50000 := (i 0).isLt
  have hi1 : (i 1).val < 768 := (i 1).isLt
  have hN : cfg1.N = 25 := N_1
  let t : Fin cfg1.N := ⟨(i 0).val / 2000, by rw [hN]; omega⟩
  obtain ⟨e00, e01, e10, e11, e20, e21, e30, e31, e40, e41, e50, e51, e60, e61⟩ := idx_facts t
  have ht : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 768 ≤ (i 1).val ∧ (i 1).val < win1_6.index t (1 : Fin 2) * 768 + 768; omega

/-- THE ARRAY the launch leaves is the second layer of the operand arrays it found. -/
theorem final (c : Dev nD) : (dat1 V c).arrAt 6 cfg1.N = G V c :=
  (dat1 V c).arrAt_eq_of_cover 6 (G V c) (fun t _ => flushed_eq V c t) (cover)

end Cert.Sage.Region1

end
-- ==== Proof.SageHost.lean ====
/-
  What the buffers the two launches read hold when each launch is entered, and so what the program's result
  buffer holds at the end, as functions of the argument arrays.

  The first launch is entered with (segSum ei x, x, invDeg ei, tr W1l, tr W1r, biasRow b1l): the host
  operations before it compute exactly these from the arguments. It leaves the first layer `h` of them. The
  host operations between the launches gather and sum `h` the same way and transpose the second layer's
  weights, so the second launch is entered with (segSum ei h, h, invDeg ei, tr W2l, tr W2r, biasRow b2l) and
  leaves the second layer of them in the result buffer.
-/
import proofs.«101068_j38946763440879_2_alg».proof.Proof.Gen.KernelIdeal.Frame
import proofs.«101068_j38946763440879_2_alg».proof.Proof.SageHostDefs
import proofs.«101068_j38946763440879_2_alg».proof.Proof.SageRegion0
import proofs.«101068_j38946763440879_2_alg».proof.Proof.SageRegion1
import Idealize.ShloMosaic.Lib.StableHlo.Run

set_option maxRecDepth 16384

noncomputable section

namespace Cert.Sage.Host

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## At the first launch's entry: the three stretches of host operations before it, from the launch memory -/

set_option maxHeartbeats 8000000 in
theorem W3_v21 (c : Dev nD) : W3 m ρ c (Proc.devRef .tc main_v21) = segSum (m ((c : Thread nD τ).loc main_arg1)) (m ((c : Thread nD τ).loc main_arg0)) := by
  dsimp only [W3, W2, W1, hostOps0, hostOps0_1, hostOps0_2]
  after_results_simp <;> rfl

set_option maxHeartbeats 8000000 in
theorem W3_arg0 (c : Dev nD) : W3 m ρ c (Proc.devRef .tc main_arg0) = (m ((c : Thread nD τ).loc main_arg0)) := by
  dsimp only [W3, W2, W1, hostOps0, hostOps0_1, hostOps0_2]
  after_results_simp <;> rfl

set_option maxHeartbeats 8000000 in
theorem W3_v11 (c : Dev nD) : W3 m ρ c (Proc.devRef .tc main_v11) = invDeg (m ((c : Thread nD τ).loc main_arg1)) := by
  dsimp only [W3, W2, W1, hostOps0, hostOps0_1, hostOps0_2]
  after_results_simp <;> rfl

set_option maxHeartbeats 8000000 in
theorem W3_v22 (c : Dev nD) : W3 m ρ c (Proc.devRef .tc main_v22) = tr (m ((c : Thread nD τ).loc main_arg2)) := by
  dsimp only [W3, W2, W1, hostOps0, hostOps0_1, hostOps0_2]
  after_results_simp <;> rfl

set_option maxHeartbeats 8000000 in
theorem W3_v23 (c : Dev nD) : W3 m ρ c (Proc.devRef .tc main_v23) = tr (m ((c : Thread nD τ).loc main_arg4)) := by
  dsimp only [W3, W2, W1, hostOps0, hostOps0_1, hostOps0_2]
  after_results_simp <;> rfl

set_option maxHeartbeats 8000000 in
theorem W3_v24 (c : Dev nD) : W3 m ρ c (Proc.devRef .tc main_v24) = biasRow (m ((c : Thread nD τ).loc main_arg3)) := by
  dsimp only [W3, W2, W1, hostOps0, hostOps0_1, hostOps0_2]
  after_results_simp <;> rfl

set_option maxHeartbeats 8000000 in
theorem W3_v3 (c : Dev nD) : W3 m ρ c (Proc.devRef .tc main_v3) = dstRow (m ((c : Thread nD τ).loc main_arg1)) := by
  dsimp only [W3, W2, W1, hostOps0, hostOps0_1, hostOps0_2]
  after_results_simp <;> rfl

set_option maxHeartbeats 8000000 in
theorem W3_v1 (c : Dev nD) : W3 m ρ c (Proc.devRef .tc main_v1) = srcRow (m ((c : Thread nD τ).loc main_arg1)) := by
  dsimp only [W3, W2, W1, hostOps0, hostOps0_1, hostOps0_2]
  after_results_simp <;> rfl

set_option maxHeartbeats 8000000 in
theorem W3_arg5 (c : Dev nD) : W3 m ρ c (Proc.devRef .tc main_arg5) = (m ((c : Thread nD τ).loc main_arg5)) := by
  dsimp only [W3, W2, W1, hostOps0, hostOps0_1, hostOps0_2]
  after_results_simp <;> rfl

set_option maxHeartbeats 8000000 in
theorem W3_arg6 (c : Dev nD) : W3 m ρ c (Proc.devRef .tc main_arg6) = (m ((c : Thread nD τ).loc main_arg6)) := by
  dsimp only [W3, W2, W1, hostOps0, hostOps0_1, hostOps0_2]
  after_results_simp <;> rfl

set_option maxHeartbeats 8000000 in
theorem W3_arg7 (c : Dev nD) : W3 m ρ c (Proc.devRef .tc main_arg7) = (m ((c : Thread nD τ).loc main_arg7)) := by
  dsimp only [W3, W2, W1, hostOps0, hostOps0_1, hostOps0_2]
  after_results_simp <;> rfl

/-! ## After the first launch: its output array holds the first layer; what it did not write is as before -/

/-- The first layer of the arguments. -/
abbrev h1 (c : Dev nD) : S50000x768.Idx → EReal :=
  (Layer.layer true (segSum (m ((c : Thread nD τ).loc main_arg1)) (m ((c : Thread nD τ).loc main_arg0))) (m ((c : Thread nD τ).loc main_arg0)) (invDeg (m ((c : Thread nD τ).loc main_arg1))) (tr (m ((c : Thread nD τ).loc main_arg2))) (tr (m ((c : Thread nD τ).loc main_arg4))) (biasRow (m ((c : Thread nD τ).loc main_arg3))))

theorem W4_v25 (c : Dev nD) : W4 m ρ c (Proc.devRef .tc main_v25) = h1 m c := by
  refine (W4_arr m ρ c 6).trans ((Region0.final (V3 m ρ) c).trans ?_)
  show Layer.layer true (W3 m ρ c (Proc.devRef .tc main_v21)) (W3 m ρ c (Proc.devRef .tc main_arg0)) (W3 m ρ c (Proc.devRef .tc main_v11))
      (W3 m ρ c (Proc.devRef .tc main_v22)) (W3 m ρ c (Proc.devRef .tc main_v23)) (W3 m ρ c (Proc.devRef .tc main_v24)) = _
  rw [W3_v21, W3_arg0, W3_v11, W3_v22, W3_v23, W3_v24]

/-- The reciprocal-degree column is an input of the first launch: staged, never written back. -/
theorem W4_v11 (c : Dev nD) : W4 m ρ c (Proc.devRef .tc main_v11) = invDeg (m ((c : Thread nD τ).loc main_arg1)) :=
  ((W4_arr m ρ c 2).trans (((dat0 (V3 m ρ) c).arrAt_in 2 rfl _).trans (A_eq0 (V3 m ρ) c 2))).trans (W3_v11 m ρ c)

theorem W4_v3 (c : Dev nD) : W4 m ρ c (Proc.devRef .tc main_v3) = dstRow (m ((c : Thread nD τ).loc main_arg1)) :=
  (W4_of_ne m ρ c main_v3 (by decide)).trans (W3_v3 m ρ c)
theorem W4_v1 (c : Dev nD) : W4 m ρ c (Proc.devRef .tc main_v1) = srcRow (m ((c : Thread nD τ).loc main_arg1)) :=
  (W4_of_ne m ρ c main_v1 (by decide)).trans (W3_v1 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_arg6 (c : Dev nD) : W4 m ρ c (Proc.devRef .tc main_arg6) = (m ((c : Thread nD τ).loc main_arg6)) :=
  (W4_of_ne m ρ c main_arg6 (by decide)).trans (W3_arg6 m ρ c)
theorem W4_arg7 (c : Dev nD) : W4 m ρ c (Proc.devRef .tc main_arg7) = (m ((c : Thread nD τ).loc main_arg7)) :=
  (W4_of_ne m ρ c main_arg7 (by decide)).trans (W3_arg7 m ρ c)

/-! ## At the second launch's entry: the stretch of host operations between the launches -/

set_option maxHeartbeats 8000000 in
theorem W5_v35 (c : Dev nD) : W5 m ρ c (Proc.devRef .tc main_v35) = segSum (m ((c : Thread nD τ).loc main_arg1)) (h1 m c) := by
  dsimp only [W5, hostOps1]
  after_results_simp
  rw [W4_v3, W4_v1, W4_v25]
  rfl

set_option maxHeartbeats 8000000 in
theorem W5_v25 (c : Dev nD) : W5 m ρ c (Proc.devRef .tc main_v25) = h1 m c := by
  dsimp only [W5, hostOps1]
  after_results_simp
  exact W4_v25 m ρ c

set_option maxHeartbeats 8000000 in
theorem W5_v11 (c : Dev nD) : W5 m ρ c (Proc.devRef .tc main_v11) = invDeg (m ((c : Thread nD τ).loc main_arg1)) := by
  dsimp only [W5, hostOps1]
  after_results_simp
  exact W4_v11 m ρ c

set_option maxHeartbeats 8000000 in
theorem W5_v36 (c : Dev nD) : W5 m ρ c (Proc.devRef .tc main_v36) = tr (m ((c : Thread nD τ).loc main_arg5)) := by
  dsimp only [W5, hostOps1]
  after_results_simp
  rw [W4_arg5]
  rfl

set_option maxHeartbeats 8000000 in
theorem W5_v37 (c : Dev nD) : W5 m ρ c (Proc.devRef .tc main_v37) = tr (m ((c : Thread nD τ).loc main_arg7)) := by
  dsimp only [W5, hostOps1]
  after_results_simp
  rw [W4_arg7]
  rfl

set_option maxHeartbeats 8000000 in
theorem W5_v38 (c : Dev nD) : W5 m ρ c (Proc.devRef .tc main_v38) = biasRow (m ((c : Thread nD τ).loc main_arg6)) := by
  dsimp only [W5, hostOps1]
  after_results_simp
  rw [W4_arg6]
  rfl

/-! ## The result buffer at the end -/

/-- THE RESULT: the second layer, on the neighbour sums of the first layer's output and that output itself. -/
theorem result (c : Dev nD) : W6 m ρ c (Proc.devRef .tc main_v39)
    = Layer.layer false (segSum (m ((c : Thread nD τ).loc main_arg1)) (h1 m c)) (h1 m c) (invDeg (m ((c : Thread nD τ).loc main_arg1))) (tr (m ((c : Thread nD τ).loc main_arg5))) (tr (m ((c : Thread nD τ).loc main_arg7))) (biasRow (m ((c : Thread nD τ).loc main_arg6))) := by
  refine (W6_arr m ρ c 6).trans ((Region1.final (V5 m ρ) c).trans ?_)
  show Layer.layer false (W5 m ρ c (Proc.devRef .tc main_v35)) (W5 m ρ c (Proc.devRef .tc main_v25)) (W5 m ρ c (Proc.devRef .tc main_v11))
      (W5 m ρ c (Proc.devRef .tc main_v36)) (W5 m ρ c (Proc.devRef .tc main_v37)) (W5 m ρ c (Proc.devRef .tc main_v38)) = _
  rw [W5_v35, W5_v25, W5_v11, W5_v36, W5_v37, W5_v38]

end Cert.Sage.Host

end
-- ==== Proof.RefLayer.lean ====
/-
  The reference side of the two-layer GraphSAGE forward pass, read as mathematics.

  An edge list gives, for each of 100000 edges, a source node and a destination node among 50000 nodes. For node
  features `y` (50000 rows of 768 numbers):
    * `segSum ei y` is the matrix S whose row n is the sum of the rows `y[src e]` over the edges e with `dst e = n`;
    * `degClip ei` is the vector D whose entry n is max(1, number of edges with destination n);
    * one layer is  out = ((S / D[:, None]) · Wl + b) + h · Wr  with `Wl`, `Wr` the transposed weight matrices, followed
      by max(·, 0) in the first layer only.
  `res_eq` says the reference program's result is the second layer applied to the first; `layerR_apply` reads one
  layer at an entry (i, j) as the two 768-term sums; `degClip_ne_zero` says no entry of D is zero.
-/
import proofs.«101068_j38946763440879_2_alg».proof.Proof.Gen.ReferenceIdeal.Run
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.Sage.Ref

open Cert.ReferenceIdeal Cert.ReferenceIdeal.Gen Idealize.ShloMosaic Idealize.ShloMosaic.TcCoe Idealize.SL.Sem Idealize.ShloMosaic.StableHlo Idealize.ShloMosaic.ValueIdx

/-! ## The pieces of one layer -/

/-- The destination node of every edge (row 1 of the edge list), as a column of 100000 entries. -/
def dstCol (ei : IVec S2x100000 32) : IVec S100000x1 32 :=
  broadcastInDim S100000x1 ![0] bcast_S100000_S100000x1_0
    (shapeCast _ (extractStridedSlice S1x100000 ![1, 0] ei slices_S2x100000_S1x100000_1_0) shapeCasts_S1x100000_S100000)

/-- The source node of every edge (row 0 of the edge list), a negative entry `s` read as `s + 50000`, as a column of
    100000 entries. -/
def srcCol (ei : IVec S2x100000 32) : IVec S100000x1 32 :=
  broadcastInDim S100000x1 ![0] bcast_S100000_S100000x1_0
    (select
      (cmpi .slt (shapeCast _ (extractStridedSlice S1x100000 ![0, 0] ei slices_S2x100000_S1x100000_0_0) shapeCasts_S1x100000_S100000)
        (broadcastInDim S100000 ![] bcast_S_S100000 (constantI S_ 32 0#32)))
      (addi (shapeCast _ (extractStridedSlice S1x100000 ![0, 0] ei slices_S2x100000_S1x100000_0_0) shapeCasts_S1x100000_S100000)
        (broadcastInDim S100000 ![] bcast_S_S100000 (constantI S_ 32 50000#32)))
      (shapeCast _ (extractStridedSlice S1x100000 ![0, 0] ei slices_S2x100000_S1x100000_0_0) shapeCasts_S1x100000_S100000))

/-- S: row n is the sum, over the edges with destination n, of the source node's row of `y`. -/
def segSum (ei : IVec S2x100000 32) (y : FVec Ideal S50000x768 .f32) :
    FVec Ideal S50000x768 .f32 :=
  Host.scatterAdd (F := Ideal) scatter_S50000x768_S100000x1_S100000x768_1_0_0_1
    (broadcastInDim S50000x768 ![] bcast_S_S50000x768 (constant S_ .f32 0x00000000#32))
    (dstCol ei)
    (Host.gather gather_S50000x768_S100000x1_S100000x768_1_0_n_n_0_1_1768 y (srcCol ei))

/-- D: entry n is max(1, the number of edges with destination n). -/
def degClip (ei : IVec S2x100000 32) : FVec Ideal S50000 .f32 :=
  maximumf (F := Ideal) (broadcastInDim S50000 ![] bcast_S_S50000 (id (constant S_ .f32 0x3F800000#32)))
    (Host.scatterAdd scatter_S50000_S100000x1_S100000_n_0_0_1
      (broadcastInDim S50000 ![] bcast_S_S50000 (constant S_ .f32 0x00000000#32))
      (dstCol ei)
      (broadcastInDim S100000 ![] bcast_S_S100000 (constant S_ .f32 0x3F800000#32)))

/-- The transposed weight matrix. -/
def tr (W : FVec Ideal S768x768 .f32) : FVec Ideal S768x768 .f32 :=
  transpose S768x768 [1, 0] W transposes_S768x768_S768x768_1_0

/-- One layer: ((S / D[:, None]) · Wl + b) + h · Wr, then max(·, 0) when `relu` is set. `Wl` and `Wr` are the
    transposed weight matrices. -/
def layerR (relu : Bool) (S h : FVec Ideal S50000x768 .f32) (D : FVec Ideal S50000 .f32)
    (Wl Wr : FVec Ideal S768x768 .f32) (b : FVec Ideal S768 .f32) :
    FVec Ideal S50000x768 .f32 :=
  match relu with
  | true =>
    maximumf (F := Ideal)
      (addf
        (addf
          (Host.dotGeneral dot_S50000x768_S768x768_S50000x768_1_0_0_1_n_n none
            (Host.divf S (broadcastInDim S50000x768 ![0, 1] bcast_S50000x1_S50000x768_0_1 (broadcastInDim S50000x1 ![0] bcast_S50000_S50000x1_0 D)))
            Wl)
          (broadcastInDim S50000x768 ![0, 1] bcast_S1x768_S50000x768_0_1 (broadcastInDim S1x768 ![1] bcast_S768_S1x768_1 b)))
        (Host.dotGeneral dot_S50000x768_S768x768_S50000x768_1_0_0_1_n_n none h Wr))
      (broadcastInDim S50000x768 ![] bcast_S_S50000x768 (constant S_ .f32 0x00000000#32))
  | false =>
    addf (F := Ideal)
      (addf
        (Host.dotGeneral dot_S50000x768_S768x768_S50000x768_1_0_0_1_n_n none
          (Host.divf S (broadcastInDim S50000x768 ![0, 1] bcast_S50000x1_S50000x768_0_1 (broadcastInDim S50000x1 ![0] bcast_S50000_S50000x1_0 D)))
          Wl)
        (broadcastInDim S50000x768 ![0, 1] bcast_S1x768_S50000x768_0_1 (broadcastInDim S1x768 ![1] bcast_S768_S1x768_1 b)))
      (Host.dotGeneral dot_S50000x768_S768x768_S50000x768_1_0_0_1_n_n none h Wr)

/-! ## The reference program's result is the second layer applied to the first -/

set_option maxRecDepth 65536 in
set_option maxHeartbeats 4000000 in
/-- With `x` the node features, `ei` the edge list and h1 = relu-layer(S(x), x) under the first layer's weights, the
    reference program's result is the plain layer on (S(h1), h1) under the second layer's weights; both layers divide by
    the same D. -/
theorem res_eq (m : (ℓ : Loc nD τ sig) → Buf (Elt Ideal) ℓ) (c : Dev nD) :
    Cert.ReferenceIdeal.Value.res_main_v56 (F := Ideal) m c =
      layerR false
        (segSum (m ((c.tc : Thread nD τ).loc main_arg1))
          (layerR true (segSum (m ((c.tc : Thread nD τ).loc main_arg1)) (m ((c.tc : Thread nD τ).loc main_arg0)))
            (m ((c.tc : Thread nD τ).loc main_arg0)) (degClip (m ((c.tc : Thread nD τ).loc main_arg1)))
            (tr (m ((c.tc : Thread nD τ).loc main_arg2))) (tr (m ((c.tc : Thread nD τ).loc main_arg4)))
            (m ((c.tc : Thread nD τ).loc main_arg3))))
        (layerR true (segSum (m ((c.tc : Thread nD τ).loc main_arg1)) (m ((c.tc : Thread nD τ).loc main_arg0)))
          (m ((c.tc : Thread nD τ).loc main_arg0)) (degClip (m ((c.tc : Thread nD τ).loc main_arg1)))
          (tr (m ((c.tc : Thread nD τ).loc main_arg2))) (tr (m ((c.tc : Thread nD τ).loc main_arg4)))
          (m ((c.tc : Thread nD τ).loc main_arg3)))
        (degClip (m ((c.tc : Thread nD τ).loc main_arg1)))
        (tr (m ((c.tc : Thread nD τ).loc main_arg5))) (tr (m ((c.tc : Thread nD τ).loc main_arg7)))
        (m ((c.tc : Thread nD τ).loc main_arg6)) := by
  unfold Cert.ReferenceIdeal.Value.res_main_v56 layerR segSum degClip dstCol srcCol tr
  rfl

/-! ## The operations of a layer read at an entry (i, j) -/

/-- The host's quotient at an index is the quotient of the entries. -/
theorem hostDivf_apply {s : Shape} {φ : FTy} (a b : FVec Ideal s φ) (i : s.Idx) : Host.divf a b i = Ideal.div (a i) (b i) := rfl

/-- D[:, None] spread over the 768 columns: its (i, j) entry is D's entry i. -/
theorem rowBcast_apply (D : FVec Ideal S50000 .f32) (i : Fin 50000) (j : Fin 768) :
    broadcastInDim S50000x768 ![0, 1] bcast_S50000x1_S50000x768_0_1 (broadcastInDim S50000x1 ![0] bcast_S50000_S50000x1_0 D) (ix2 i j)
      = D (ix1 i) := by
  refine (broadcastInDim_apply _ bcast_S50000x1_S50000x768_0_1 _ (ix2 i j) (ix2 i (0 : Fin 1)) (fun a => match a with
    | ⟨0, _⟩ => by show i.val = if (50000 : Nat) = 1 then 0 else i.val; rw [if_neg (by decide)]
    | ⟨1, _⟩ => by show 0 = if (1 : Nat) = 1 then 0 else j.val; rw [if_pos rfl])).trans ?_
  exact broadcastInDim_apply _ bcast_S50000_S50000x1_0 D (ix2 i (0 : Fin 1)) (ix1 i) (fun a => match a with
    | ⟨0, _⟩ => by show i.val = if (50000 : Nat) = 1 then 0 else i.val; rw [if_neg (by decide)])

/-- The bias b[None, :] spread over the 50000 rows: its (i, j) entry is b's entry j. -/
theorem biasBcast_apply (b : FVec Ideal S768 .f32) (i : Fin 50000) (j : Fin 768) :
    broadcastInDim S50000x768 ![0, 1] bcast_S1x768_S50000x768_0_1 (broadcastInDim S1x768 ![1] bcast_S768_S1x768_1 b) (ix2 i j)
      = b (ix1 j) := by
  refine (broadcastInDim_apply _ bcast_S1x768_S50000x768_0_1 _ (ix2 i j) (ix2 (0 : Fin 1) j) (fun a => match a with
    | ⟨0, _⟩ => by show 0 = if (1 : Nat) = 1 then 0 else i.val; rw [if_pos rfl]
    | ⟨1, _⟩ => by show j.val = if (768 : Nat) = 1 then 0 else j.val; rw [if_neg (by decide)])).trans ?_
  exact broadcastInDim_apply _ bcast_S768_S1x768_1 b (ix2 (0 : Fin 1) j) (ix1 j) (fun a => match a with
    | ⟨0, _⟩ => by show j.val = if (768 : Nat) = 1 then 0 else j.val; rw [if_neg (by decide)])

/-- The zero matrix's (i, j) entry is the number the zero word encodes. -/
theorem zeros_apply (i : Fin 50000) (j : Fin 768) :
    broadcastInDim S50000x768 ![] bcast_S_S50000x768 (constant (F := Ideal) S_ .f32 0x00000000#32) (ix2 i j)
      = Ideal.ofBits .f32 0x00000000#32 :=
  broadcastInDim_apply _ bcast_S_S50000x768 _ (ix2 i j) (fun a => a.elim0) (fun a => a.elim0)

/-- The operand indices of the product A · W at output index `o` and contraction index `q`, coordinate by coordinate: the
    left operand is read at (o's row, q), the right at (q, o's column). -/
theorem dot_lhs0 (o : S50000x768.Idx) (q : dot_S50000x768_S768x768_S50000x768_1_0_0_1_n_n.contr.Idx) :
    (dot_S50000x768_S768x768_S50000x768_1_0_0_1_n_n.lhsIdx o q 0).val = (o 0).val := by
  unfold DotDims.lhsIdx
  rw [dif_neg (show ¬(0 : Fin S50000x768.rank) ∈ dot_S50000x768_S768x768_S50000x768_1_0_0_1_n_n.lhsBatch by decide),
    dif_pos (show (0 : Fin S50000x768.rank) ∈ dot_S50000x768_S768x768_S50000x768_1_0_0_1_n_n.lhsNonContracting by decide)]
  rfl
theorem dot_lhs1 (o : S50000x768.Idx) (q : dot_S50000x768_S768x768_S50000x768_1_0_0_1_n_n.contr.Idx) :
    (dot_S50000x768_S768x768_S50000x768_1_0_0_1_n_n.lhsIdx o q 1).val = (q ⟨0, by decide⟩).val :=
  dot_S50000x768_S768x768_S50000x768_1_0_0_1_n_n.lhsIdx_val_of_single rfl o q
theorem dot_rhs0 (o : S50000x768.Idx) (q : dot_S50000x768_S768x768_S50000x768_1_0_0_1_n_n.contr.Idx) :
    (dot_S50000x768_S768x768_S50000x768_1_0_0_1_n_n.rhsIdx o q 0).val = (q ⟨0, by decide⟩).val :=
  dot_S50000x768_S768x768_S50000x768_1_0_0_1_n_n.rhsIdx_val_of_single rfl o q
theorem dot_rhs1 (o : S50000x768.Idx) (q : dot_S50000x768_S768x768_S50000x768_1_0_0_1_n_n.contr.Idx) :
    (dot_S50000x768_S768x768_S50000x768_1_0_0_1_n_n.rhsIdx o q 1).val = (o 1).val := by
  unfold DotDims.rhsIdx
  rw [dif_neg (show ¬(1 : Fin S768x768.rank) ∈ dot_S50000x768_S768x768_S50000x768_1_0_0_1_n_n.rhsBatch by decide),
    dif_pos (show (1 : Fin S768x768.rank) ∈ dot_S50000x768_S768x768_S50000x768_1_0_0_1_n_n.rhsNonContracting by decide)]
  rfl

/-- The matrix product A · W at entry (i, j) is the 768-term sum of A[i, k] · W[k, j]. -/
theorem dot_apply (A : FVec Ideal S50000x768 .f32) (W : FVec Ideal S768x768 .f32) (i : Fin 50000) (j : Fin 768) :
    Host.dotGeneral dot_S50000x768_S768x768_S50000x768_1_0_0_1_n_n none A W (ix2 i j)
      = ∑ k : Fin 768, A (ix2 i k) * W (ix2 k j) := by
  simp only [Host.dotGeneral]
  rw [Ideal.dotGeneral_apply, ← Equiv.sum_comp (contrEquiv1 dot_S50000x768_S768x768_S50000x768_1_0_0_1_n_n 768 rfl rfl).symm]
  refine Finset.sum_congr rfl fun k _ => ?_
  have hk := contrEquiv1_symm_val dot_S50000x768_S768x768_S50000x768_1_0_0_1_n_n 768 rfl rfl k
  have el : dot_S50000x768_S768x768_S50000x768_1_0_0_1_n_n.lhsIdx (ix2 i j)
      ((contrEquiv1 dot_S50000x768_S768x768_S50000x768_1_0_0_1_n_n 768 rfl rfl).symm k) = ix2 i k :=
    funext fun a => Fin.ext (by
      match a with
      | ⟨0, _⟩ => exact dot_lhs0 _ _
      | ⟨1, _⟩ => exact (dot_lhs1 _ _).trans hk)
  have er : dot_S50000x768_S768x768_S50000x768_1_0_0_1_n_n.rhsIdx (ix2 i j)
      ((contrEquiv1 dot_S50000x768_S768x768_S50000x768_1_0_0_1_n_n 768 rfl rfl).symm k) = ix2 k j :=
    funext fun a => Fin.ext (by
      match a with
      | ⟨0, _⟩ => exact (dot_rhs0 _ _).trans hk
      | ⟨1, _⟩ => exact dot_rhs1 _ _)
  rw [el, er]

/-! ## No entry of D is zero -/

/-- A maximum with one is not zero. -/
theorem max_one_ne_zero (d : EReal) : max 1 d ≠ 0 := by
  intro h0
  have h1 : (1 : EReal) ≤ max 1 d := le_max_left 1 d
  rw [h0] at h1
  exact absurd h1 (not_le.mpr zero_lt_one)

/-- D's entries are max(1, ·), so none of them is zero: dividing by D is multiplying by its inverse. -/
theorem degClip_ne_zero (ei : IVec S2x100000 32) (i : S50000.Idx) : degClip ei i ≠ 0 := by
  unfold degClip
  rw [maximumf_apply]
  have h1 : broadcastInDim S50000 ![] bcast_S_S50000 (id (constant (F := Ideal) S_ .f32 0x3F800000#32)) i = 1 :=
    (broadcastInDim_apply _ bcast_S_S50000 _ i (fun a => a.elim0) (fun a => a.elim0)).trans Ideal.ofBits_one_f32
  rw [h1]
  exact max_one_ne_zero _

/-! ## One layer at an entry (i, j) -/

/-- Row i of S / D[:, None] against column j of Wl: every term divides by the same D[i]. -/
theorem meanDot_apply (S : FVec Ideal S50000x768 .f32) (D : FVec Ideal S50000 .f32) (Wl : FVec Ideal S768x768 .f32)
    (i : Fin 50000) (j : Fin 768) :
    ∑ k : Fin 768, Ideal.div (S (ix2 i k))
        (broadcastInDim S50000x768 ![0, 1] bcast_S50000x1_S50000x768_0_1 (broadcastInDim S50000x1 ![0] bcast_S50000_S50000x1_0 D) (ix2 i k))
        * Wl (ix2 k j)
      = ∑ k : Fin 768, Ideal.div (S (ix2 i k)) (D (ix1 i)) * Wl (ix2 k j) :=
  Finset.sum_congr rfl fun k _ => by rw [rowBcast_apply]

/-- Without the final maximum: ((S / D[:, None]) · Wl + b) + h · Wr at (i, j), as the two 768-term sums. -/
theorem layerR_false_apply (S h : FVec Ideal S50000x768 .f32) (D : FVec Ideal S50000 .f32) (Wl Wr : FVec Ideal S768x768 .f32)
    (b : FVec Ideal S768 .f32) (i : Fin 50000) (j : Fin 768) :
    layerR false S h D Wl Wr b (ix2 i j) =
      ((∑ k : Fin 768, Ideal.div (S (ix2 i k)) (D (ix1 i)) * Wl (ix2 k j)) + b (ix1 j)) + ∑ k : Fin 768, h (ix2 i k) * Wr (ix2 k j) := by
  unfold layerR
  simp only [addf_apply, dot_apply, hostDivf_apply]
  rw [biasBcast_apply, meanDot_apply]

/-- The layer with the final maximum is the maximum of the layer without it and the zero matrix. -/
theorem layerR_true_eq (S h : FVec Ideal S50000x768 .f32) (D : FVec Ideal S50000 .f32) (Wl Wr : FVec Ideal S768x768 .f32)
    (b : FVec Ideal S768 .f32) :
    layerR true S h D Wl Wr b = maximumf (F := Ideal) (layerR false S h D Wl Wr b)
      (broadcastInDim S50000x768 ![] bcast_S_S50000x768 (constant S_ .f32 0x00000000#32)) := rfl

/-- With the final maximum: the same number, then max(·, 0). -/
theorem layerR_true_apply (S h : FVec Ideal S50000x768 .f32) (D : FVec Ideal S50000 .f32) (Wl Wr : FVec Ideal S768x768 .f32)
    (b : FVec Ideal S768 .f32) (i : Fin 50000) (j : Fin 768) :
    layerR true S h D Wl Wr b (ix2 i j) =
      max (((∑ k : Fin 768, Ideal.div (S (ix2 i k)) (D (ix1 i)) * Wl (ix2 k j)) + b (ix1 j)) + ∑ k : Fin 768, h (ix2 i k) * Wr (ix2 k j))
        (Ideal.ofBits .f32 0x00000000#32) := by
  rw [layerR_true_eq, maximumf_apply, layerR_false_apply, zeros_apply]

/-- One layer at (i, j): ∑ₖ (S[i,k] / D[i]) · Wl[k,j] + b[j] + ∑ₖ h[i,k] · Wr[k,j], then max(·, 0) when `relu` is set. -/
theorem layerR_apply (relu : Bool) (S h : FVec Ideal S50000x768 .f32) (D : FVec Ideal S50000 .f32) (Wl Wr : FVec Ideal S768x768 .f32)
    (b : FVec Ideal S768 .f32) (i : Fin 50000) (j : Fin 768) :
    layerR relu S h D Wl Wr b (ix2 i j) =
      (fun v : EReal => if relu then max v (Ideal.ofBits .f32 0x00000000#32) else v)
        (((∑ k : Fin 768, Ideal.div (S (ix2 i k)) (D (ix1 i)) * Wl (ix2 k j)) + b (ix1 j)) + ∑ k : Fin 768, h (ix2 i k) * Wr (ix2 k j)) := by
  cases relu
  · exact layerR_false_apply S h D Wl Wr b i j
  · exact layerR_true_apply S h D Wl Wr b i j

end Cert.Sage.Ref

end
-- ==== Proof.SageBridge.lean ====
/-
  The layer as the kernel side writes it and the layer as the reference side writes it are the same function.

  Kernel side: entry (P, Q) is (∑ₖ (S[P,k] · R[P]) · WL[k,Q] + ∑ₖ X[P,k] · WR[k,Q]) + B[Q] with R the column of reciprocals
  1 / D. Reference side: (∑ₖ (S[P,k] / D[P]) · WL[k,Q] + b[Q]) + ∑ₖ X[P,k] · WR[k,Q]. Every entry of D is a maximum with 1, so
  it is not zero, and for d ≠ 0 both s · (1 / d) and s / d are s · d⁻¹ on the extended reals: the first sums agree term by
  term, and the two ways of adding the three numbers agree because addition is commutative and associative.
-/
import proofs.«101068_j38946763440879_2_alg».proof.Proof.SageLayer
import proofs.«101068_j38946763440879_2_alg».proof.Proof.SageHostDefs
import proofs.«101068_j38946763440879_2_alg».proof.Proof.RefLayer
import Idealize.ShloMosaic.Lib.Pipeline.Value
import Idealize.ShloMosaic.Lib.IdealHost

noncomputable section

open scoped BigOperators

namespace Cert.Sage.Bridge

open Idealize.ShloMosaic Idealize.ShloMosaic.ValueIdx
open Cert.ReferenceIdeal (S2x100000 S50000x768 S768x768 S768 S50000 S50000x1 S1x768 S_)

/-! ## The two spellings of the pieces are the same functions -/

/-- The neighbour sums. -/
theorem segSum_eq (ei : IVec S2x100000 32) (y : FVec Ideal S50000x768 .f32) :
    Cert.Sage.Host.segSum ei y = Cert.Sage.Ref.segSum ei y := rfl

/-- The clipped degrees. -/
theorem degClip_eq (ei : IVec S2x100000 32) : Cert.Sage.Host.degClip ei = Cert.Sage.Ref.degClip ei := rfl

/-- The transposed weights. -/
theorem tr_eq (W : FVec Ideal S768x768 .f32) : Cert.Sage.Host.tr W = Cert.Sage.Ref.tr W := rfl

/-! ## The reciprocal column and the bias row at an entry -/

/-- The reciprocal column at row P is 1 / D[P]. -/
theorem invDeg_apply (ei : IVec S2x100000 32) (P : Fin 50000) :
    Cert.Sage.Host.invDeg ei (ix2 P (0 : Fin 1)) = Ideal.div 1 (Cert.Sage.Ref.degClip ei (ix1 P)) := by
  unfold Cert.Sage.Host.invDeg
  refine (shapeCast_apply _ _ (ix2 P (0 : Fin 1)) (ix1 P) ?_).trans ?_
  · rw [Shape.rowMajor_val_one, Shape.rowMajor_val_two]
    show P.val = P.val * 1 + 0
    omega
  · rw [Cert.Sage.Ref.hostDivf_apply,
      broadcastInDim_apply (s := S_) _ _ _ (ix1 P) (fun a => a.elim0) (fun a => a.elim0),
      constant_apply, Ideal.ofBits_one_f32, degClip_eq]

/-- The bias row at column Q is b[Q]. -/
theorem biasRow_apply (b : FVec Ideal S768 .f32) (Q : Fin 768) :
    Cert.Sage.Host.biasRow b (ix2 (0 : Fin 1) Q) = b (ix1 Q) := by
  unfold Cert.Sage.Host.biasRow
  refine shapeCast_apply b _ (ix2 (0 : Fin 1) Q) (ix1 Q) ?_
  rw [Shape.rowMajor_val_one, Shape.rowMajor_val_two]
  show Q.val = 0 * 768 + Q.val
  omega

/-! ## The layers agree -/

/-- The kernel side's entry (P, Q), with the reciprocal column and the bias row, is the reference side's. -/
theorem pre_eq (ei : IVec S2x100000 32) (S X : FVec Ideal S50000x768 .f32) (WL WR : FVec Ideal S768x768 .f32)
    (b : FVec Ideal S768 .f32) (P : Fin 50000) (Q : Fin 768) :
    Cert.Sage.Layer.pre S X (Cert.Sage.Host.invDeg ei) WL WR (Cert.Sage.Host.biasRow b) P Q
      = ((∑ k : Fin 768, Ideal.div (S (ix2 P k)) (Cert.Sage.Ref.degClip ei (ix1 P)) * WL (ix2 k Q)) + b (ix1 Q))
        + ∑ k : Fin 768, X (ix2 P k) * WR (ix2 k Q) := by
  unfold Cert.Sage.Layer.pre
  rw [invDeg_apply, biasRow_apply, add_right_comm]
  refine congrArg (fun v => v + b (ix1 Q) + ∑ k : Fin 768, X (ix2 P k) * WR (ix2 k Q)) (Finset.sum_congr rfl fun k _ => ?_)
  rw [Ideal.mul_one_div (Cert.Sage.Ref.degClip_ne_zero ei (ix1 P))]

/-- THE LAYERS AGREE: the kernel side's layer, given the reciprocal column 1 / D and the bias as a row, is the reference
    side's layer given D and the bias. -/
theorem layer_eq_layerR (relu : Bool) (ei : IVec S2x100000 32) (S X : FVec Ideal S50000x768 .f32) (WL WR : FVec Ideal S768x768 .f32)
    (b : FVec Ideal S768 .f32) :
    Cert.Sage.Layer.layer relu S X (Cert.Sage.Host.invDeg ei) WL WR (Cert.Sage.Host.biasRow b)
      = Cert.Sage.Ref.layerR relu S X (Cert.Sage.Ref.degClip ei) WL WR b := by
  funext i
  obtain ⟨P, Q, rfl⟩ : ∃ P Q, i = ix2 P Q := ⟨i 0, i 1, eq_ix2 i⟩
  cases relu
  · exact (pre_eq ei S X WL WR b P Q).trans (Cert.Sage.Ref.layerR_false_apply S X _ WL WR b P Q).symm
  · refine Eq.trans ?_ (Cert.Sage.Ref.layerR_true_apply S X _ WL WR b P Q).symm
    exact congrArg (fun v => max v (Ideal.ofBits .f32 0x00000000#32)) (pre_eq ei S X WL WR b P Q)

/-- BOTH LAYERS: the second layer on the neighbour sums of the first, kernel side, is the same nest on the reference side. -/
theorem nested_eq (ei : IVec S2x100000 32) (x : FVec Ideal S50000x768 .f32) (W1l W1r W2l W2r : FVec Ideal S768x768 .f32)
    (b1l b2l : FVec Ideal S768 .f32) :
    Cert.Sage.Layer.layer false
        (Cert.Sage.Host.segSum ei (Cert.Sage.Layer.layer true (Cert.Sage.Host.segSum ei x) x (Cert.Sage.Host.invDeg ei)
          (Cert.Sage.Host.tr W1l) (Cert.Sage.Host.tr W1r) (Cert.Sage.Host.biasRow b1l)))
        (Cert.Sage.Layer.layer true (Cert.Sage.Host.segSum ei x) x (Cert.Sage.Host.invDeg ei)
          (Cert.Sage.Host.tr W1l) (Cert.Sage.Host.tr W1r) (Cert.Sage.Host.biasRow b1l))
        (Cert.Sage.Host.invDeg ei) (Cert.Sage.Host.tr W2l) (Cert.Sage.Host.tr W2r) (Cert.Sage.Host.biasRow b2l)
      = Cert.Sage.Ref.layerR false
        (Cert.Sage.Ref.segSum ei (Cert.Sage.Ref.layerR true (Cert.Sage.Ref.segSum ei x) x (Cert.Sage.Ref.degClip ei)
          (Cert.Sage.Ref.tr W1l) (Cert.Sage.Ref.tr W1r) b1l))
        (Cert.Sage.Ref.layerR true (Cert.Sage.Ref.segSum ei x) x (Cert.Sage.Ref.degClip ei)
          (Cert.Sage.Ref.tr W1l) (Cert.Sage.Ref.tr W1r) b1l)
        (Cert.Sage.Ref.degClip ei) (Cert.Sage.Ref.tr W2l) (Cert.Sage.Ref.tr W2r) b2l := by
  rw [layer_eq_layerR, layer_eq_layerR]
  simp only [segSum_eq, tr_eq]

end Cert.Sage.Bridge

end
-- ==== Proof.lean ====
/-
  The certificate of a two-layer GraphSAGE forward pass against its jnp reference, over the extended reals.

  Both programs compute, for node features `x` and an edge list `ei`, with S(y) the per-destination sums of
  the source nodes' rows of `y` and D the per-node maximum of 1 and the in-degree,

      h   = max(0, layer₁(S(x), x)),     out = layer₂(S(h), h),
      layer(S, y) = (S / D) · Wlᵀ + b + y · Wrᵀ .

  The kernel program computes the column 1 / D once on the host and multiplies by it inside the two
  launches, adding the bias last; the reference divides by D and adds the bias before the second product.
  Entry by entry the two agree on all extended reals: D ≥ 1 is never zero, so s · (1 / d) = s / d, and the
  rest is commutativity and associativity of the sum. The gathers and scatters are the same operations on
  both sides and are never opened.

  The three frames: the two kernel programs' are the generated ones; the reference's is its generated run
  with the result dropped. The ideal pass rewrote nothing, so the idealization claim is trivial.
-/
import proofs.«101068_j38946763440879_2_alg».proof.Defs
import proofs.«101068_j38946763440879_2_alg».proof.Proof.Gen.Kernel
import proofs.«101068_j38946763440879_2_alg».proof.Proof.Gen.Kernel.Skeleton
import proofs.«101068_j38946763440879_2_alg».proof.Proof.Gen.Kernel.Launch
import proofs.«101068_j38946763440879_2_alg».proof.Proof.Gen.Kernel.Points
import proofs.«101068_j38946763440879_2_alg».proof.Proof.Gen.Kernel.Frame
import proofs.«101068_j38946763440879_2_alg».proof.Proof.Gen.KernelIdeal
import proofs.«101068_j38946763440879_2_alg».proof.Proof.Gen.KernelIdeal.Skeleton
import proofs.«101068_j38946763440879_2_alg».proof.Proof.Gen.KernelIdeal.Launch
import proofs.«101068_j38946763440879_2_alg».proof.Proof.Gen.KernelIdeal.Points
import proofs.«101068_j38946763440879_2_alg».proof.Proof.Gen.KernelIdeal.Frame
import proofs.«101068_j38946763440879_2_alg».proof.Proof.Gen.ReferenceIdeal
import proofs.«101068_j38946763440879_2_alg».proof.Proof.Gen.ReferenceIdeal.Run
import proofs.«101068_j38946763440879_2_alg».proof.Proof.Gen.Pre_finite_inputs
import proofs.«101068_j38946763440879_2_alg».proof.Proof.SageRun
import proofs.«101068_j38946763440879_2_alg».proof.Proof.SageHost
import proofs.«101068_j38946763440879_2_alg».proof.Proof.RefLayer
import proofs.«101068_j38946763440879_2_alg».proof.Proof.SageBridge
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the second layer of the first layer: the kernel
    program's result buffer read back through its two launches and four stretches of host operations, the
    reference's composed term read as the same two layers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v39), Cert.Sage.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.Sage.Ref.res_eq, h0, h1, h2, h3, h4, h5, h6, h7]
  exact ((Cert.Sage.Host.result m ρ c).trans (Cert.Sage.Bridge.nested_eq _ _ _ _ _ _ _ _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
